-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S100000x512 .f32) (main_arg1 : IVec S2x3200000 32) (main_arg2 : FVec F S512x64 .f32) (main_arg3 : FVec F S64 .f32) (main_arg4 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S1 : Shape := ⟨1, ![1]⟩
abbrev S100000x64 : Shape := ⟨2, ![100000, 64]⟩
abbrev S2000x512 : Shape := ⟨2, ![2000, 512]⟩
abbrev S2000x64 : Shape := ⟨2, ![2000, 64]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x64 : Shape := ⟨2, ![1, 64]⟩
abbrev S1x1 : Shape := ⟨2, ![1, 1]⟩
abbrev S5000x64 : Shape := ⟨2, ![5000, 64]⟩

abbrev nBuf : Space → Nat
  | .hbm => 65
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S1, .f32⟩
  | .hbm, ⟨5, _⟩ => ⟨S100000x64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S3200000, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S3200000x1, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S1x64, .f32⟩
  | .hbm, ⟨63, _⟩ => ⟨S1x1, .f32⟩
  | .hbm, ⟨64, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x1, .f32⟩
  | .local _ .vmem, ⟨9, _⟩ => ⟨S5000x64, .f32⟩
  | .local _ .vmem, ⟨10, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S2000x512_S512x64_S2000x64_1_0_0_1_n_n_wf : DotDims.WF S2000x512 S512x64 S2000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S1, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000x64, .f32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S3200000, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S3200000x1, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .i1⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S1_S_ : S1.ShapeCasts S_
  dot_S100000x512_S512x64_S100000x64_1_0_0_1_n_n_wf : DotDims.WF S100000x512 S512x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelRun.lean ====
/-
  The idealized kernel program's run with its RESULT array named.

  @main is five segments: the matmul region, three stretches of host operations (the degree, normalisation, gather
  and scatter-add chain), and the bias/PReLU region. The buffer contents at the boundaries are a fold from the launch
  memory, ending at `Gen.W5`: the last region's arrays at what its write-backs leave, every other buffer as the host
  operations left it. Every weakly fair execution terminates, nothing faults, the result buffer ends at `W5`'s value
  for it and the five argument arrays end as launched. The segments, their chaining and the thread states are the
  frame's; only the last step differs, which here also reads the result buffer off the final state.
-/
import proofs.«119919_j15762529976321_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunV

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.MatmulBlock.lean ====
/-
  One block of the projection: the matmul region's stored value, read at an index, at the ideal values.

  The body loads a 2000 x 512 block of the features and the whole 512 x 64 weight matrix, narrows both to bf16 (at the
  ideal values a change of float format is the identity) and multiplies them on the matrix unit into a zero
  accumulator. Its entry (p, q) is therefore the plain sum over k of block(p, k) * weight(k, q): the contraction runs
  over the one shared axis of extent 512.
-/
import proofs.«119919_j15762529976321_2_alg».proof.Proof.Gen.KernelIdeal.Skeleton
import proofs.«119919_j15762529976321_2_alg».proof.Proof.LibContract1
import Idealize.ShloMosaic.Lib.ValueIdx
import Idealize.ShloMosaic.PureOps.Ideal.Laws

noncomputable section

namespace Cert.KernelIdeal.Projection

open Cert.KernelIdeal Cert.KernelIdeal.Gen Idealize.ShloMosaic Idealize.ShloMosaic.ValueIdx

/-- The kept axis of the left operand follows the result's row. -/
theorem lhs_row (i : S2000x64.Idx) (q : (dot_S2000x512_S512x64_S2000x64_1_0_0_1_n_n).contr.Idx) :
    ((dot_S2000x512_S512x64_S2000x64_1_0_0_1_n_n).lhsIdx i q 0).val = (i 0).val := by
  unfold DotDims.lhsIdx
  rw [dif_neg (show ¬(0 : Fin S2000x512.rank) ∈ (dot_S2000x512_S512x64_S2000x64_1_0_0_1_n_n).lhsBatch by decide),
    dif_pos (show (0 : Fin S2000x512.rank) ∈ (dot_S2000x512_S512x64_S2000x64_1_0_0_1_n_n).lhsNonContracting by decide)]
  rfl

/-- The kept axis of the right operand follows the result's column. -/
theorem rhs_col (i : S2000x64.Idx) (q : (dot_S2000x512_S512x64_S2000x64_1_0_0_1_n_n).contr.Idx) :
    ((dot_S2000x512_S512x64_S2000x64_1_0_0_1_n_n).rhsIdx i q 1).val = (i 1).val := by
  unfold DotDims.rhsIdx
  rw [dif_neg (show ¬(1 : Fin S512x64.rank) ∈ (dot_S2000x512_S512x64_S2000x64_1_0_0_1_n_n).rhsBatch by decide),
    dif_pos (show (1 : Fin S512x64.rank) ∈ (dot_S2000x512_S512x64_S2000x64_1_0_0_1_n_n).rhsNonContracting by decide)]
  rfl

/-- Entry (p, q) of the block product is the sum over the 512 shared coordinates. -/
theorem block_product (x0 : Vec Ideal S2000x512 .f32) (x1 : Vec Ideal S512x64 .f32) (p : Fin 2000) (q : Fin 64) :
    k0_pay1 (F := Ideal) x0 x1 (ix2 p q) = ∑ k : Fin 512, x0 (ix2 p k) * x1 (ix2 k q) := by
  unfold k0_pay1
  refine Cert.LibContract1.matmul_zero_single dot_S2000x512_S512x64_S2000x64_1_0_0_1_n_n 512 rfl rfl _ _ (ix2 p q)
    (fun k => ix2 p k) (fun k => ix2 k q) (fun k => ?_) (fun k => ?_)
  · have hk := contrEquiv1_symm_val dot_S2000x512_S512x64_S2000x64_1_0_0_1_n_n 512 rfl rfl k
    funext a; apply Fin.ext
    match a with
    | ⟨0, _⟩ => exact lhs_row _ _
    | ⟨1, _⟩ => exact ((dot_S2000x512_S512x64_S2000x64_1_0_0_1_n_n).lhsIdx_val_of_single rfl _ _).trans hk
  · have hk := contrEquiv1_symm_val dot_S2000x512_S512x64_S2000x64_1_0_0_1_n_n 512 rfl rfl k
    funext a; apply Fin.ext
    match a with
    | ⟨0, _⟩ => exact ((dot_S2000x512_S512x64_S2000x64_1_0_0_1_n_n).rhsIdx_val_of_single rfl _ _).trans hk
    | ⟨1, _⟩ => exact rhs_col _ _

end Cert.KernelIdeal.Projection

end
-- ==== Proof.Spec.lean ====
/-
  The mathematics of the layer, as functions on extended reals over literal shapes.

  A graph convolution without self loops followed by a parametric ReLU. With X the features (100000 x 512), W the
  weights (512 x 64), b the bias (64) and a the slope (1):
    * the projection  P(r, q) = sum over k < 512 of X(r, k) * W(k, q);
    * the aggregation A = agg(P, edges): degrees counted at the targets, d^(-1/2) at both ends of every edge, the
      projected source rows gathered, scaled, and summed into their target rows (kept as one function of P and the edge
      list; both programs apply the very same chain of host operations, so it is never opened);
    * the output  out(r, q) = act(A(r, q) + b(q), a(0)),  where  act(v, s) = v if v >= 0, else s * v.
-/
import Idealize.ShloMosaic.PureOps.Ideal
import Idealize.ShloMosaic.Lib.ValueIdx

noncomputable section

namespace Cert.Layer

open Idealize.ShloMosaic Idealize.ShloMosaic.ValueIdx

abbrev SFeat : Shape := ⟨2, ![100000, 512]⟩
abbrev SWeight : Shape := ⟨2, ![512, 64]⟩
abbrev SOut : Shape := ⟨2, ![100000, 64]⟩
abbrev SBiasRow : Shape := ⟨2, ![1, 64]⟩
abbrev SSlope : Shape := ⟨2, ![1, 1]⟩

/-- Where entry `i` of the projection reads the features at the shared coordinate `k`: (row of i, k). -/
abbrev featAt (i : SOut.Idx) (k : Fin 512) : SFeat.Idx := fun a => match a with
  | ⟨0, _⟩ => ⟨(i 0).val, (i 0).isLt⟩
  | ⟨1, _⟩ => ⟨k.val, k.isLt⟩

/-- Where it reads the weights: (k, column of i). -/
abbrev weightAt (i : SOut.Idx) (k : Fin 512) : SWeight.Idx := fun a => match a with
  | ⟨0, _⟩ => ⟨k.val, k.isLt⟩
  | ⟨1, _⟩ => ⟨(i 1).val, (i 1).isLt⟩

/-- The projection X · W, entry by entry. -/
def project (x : SFeat.Idx → EReal) (w : SWeight.Idx → EReal) : SOut.Idx → EReal :=
  fun i => ∑ k : Fin 512, x (featAt i k) * w (weightAt i k)

/-- The parametric ReLU on one value: `v` where `v ≥ 0`, else `s · v`. -/
def act (v s : EReal) : EReal :=
  Scalar.select (Ideal.cmp .oge v (Ideal.ofBits .f32 0x00000000#32)) v (s * v)

/-- Where entry `i` of the output reads the bias, laid out as one row: (0, column of i). -/
abbrev biasAt (i : SOut.Idx) : SBiasRow.Idx := fun a => match a with
  | ⟨0, _⟩ => ⟨0, Nat.one_pos⟩
  | ⟨1, _⟩ => ⟨(i 1).val, (i 1).isLt⟩

/-- The output from the aggregated rows `A`, the bias as a row and the slope as a 1 x 1 array. -/
def output (A : SOut.Idx → EReal) (b : SBiasRow.Idx → EReal) (s : SSlope.Idx → EReal) : SOut.Idx → EReal :=
  fun i => act (A i + b (biasAt i)) (s (ix2 (0 : Fin 1) (0 : Fin 1)))

end Cert.Layer

end
-- ==== Proof.ProjectionArray.lean ====
/-
  The projection as a whole array: what the matmul region leaves in its output array.

  The region's grid has 50 points. Point t loads rows 2000·t … 2000·t + 1999 of the features (all 512 columns) and the
  whole weight matrix, and writes back rows 2000·t … 2000·t + 1999 of the output (all 64 columns). The block it writes
  back is the block product, whose entry (p, q) is the sum over k of features(2000·t + p, k) · weights(k, q): that is the
  entry (2000·t + p, q) of the projection X · W. The 50 blocks tile the 100000 rows (the block holding row r is r / 2000),
  so the array ends as X · W, whatever it held before.
-/
import proofs.«119919_j15762529976321_2_alg».proof.Proof.Gen.KernelIdeal.Frame
import proofs.«119919_j15762529976321_2_alg».proof.Proof.MatmulBlock
import proofs.«119919_j15762529976321_2_alg».proof.Proof.Spec
import Idealize.ShloMosaic.Lib.Pipeline.Value

set_option maxRecDepth 16384

noncomputable section

namespace Cert.KernelIdeal.Projection

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the 50 points: the feature block and the output block sit at block row t, column
    block 0; the weights are one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays the region finds. -/
theorem written_back (c : Dev nD) (t : Fin cfg0.N) :
    (dat0 V c).flushed 2 t = ((cfg0.win 2).blk t).view.read (Elt Ideal) (project (V c main_arg0) (V c main_arg2)) := by
  show (cfg0.win 2).cut (grid0.coords t) ((dat0 V c).after 2 t) = _
  rw [after0_2]
  unfold out0_2
  rw [View.canon_unit_zero origin2]
  simp only [View.ld_unit_zero (S := S2000x512) origin2, View.ld_unit_zero (S := S512x64) origin2]
  obtain ⟨e0, e1, e2, e3, e4, e5⟩ := block_indices t
  funext j
  obtain ⟨p, q, rfl⟩ : ∃ (p : Fin 2000) (q : Fin 64), j = ix2 p q := ⟨j 0, j 1, eq_ix2 j⟩
  refine (block_product _ _ p q).trans ?_
  show ∑ k : Fin 512, (@id (SFeat.Idx → EReal) (V c main_arg0)) (((cfg0.win 0).blk t).view.emb (ix2 p k)) * (@id (SWeight.Idx → EReal) (V c main_arg2)) (((cfg0.win 1).blk t).view.emb (ix2 k q))
    = ∑ k : Fin 512, (@id (SFeat.Idx → EReal) (V c main_arg0)) (featAt (((cfg0.win 2).blk t).view.emb (ix2 p q)) k) * (@id (SWeight.Idx → EReal) (V c main_arg2)) (weightAt (((cfg0.win 2).blk t).view.emb (ix2 p q)) k)
  refine Finset.sum_congr rfl fun k _ => ?_
  have h0 : ((cfg0.win 0).blk t).view.emb (ix2 p k) = featAt (((cfg0.win 2).blk t).view.emb (ix2 p q)) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ((cfg0.win 1).blk t).view.emb (ix2 k q) = weightAt (((cfg0.win 2).blk t).view.emb (ix2 p q)) k := by
    funext a; apply Fin.ext
    match a with
    | ⟨0, _⟩ => show win0_1.index t (0 : Fin 2) * 512 + 1 * k.val = k.val; omega
    | ⟨1, _⟩ => show win0_1.index t (1 : Fin 2) * 64 + 1 * q.val = win0_2.index t (1 : Fin 2) * 64 + 1 * q.val; omega
  rw [h0, h1]

/-- An index of the output array lies in point t's block iff each coordinate lies in the block's range on its axis. -/
theorem in_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every index of the output array is in the block of some point, which writes back: row r is in block r / 2000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨e0, e1, e2, e3, e4, e5⟩ := block_indices t
  refine ⟨t, flush0_2 t, ?_⟩
  rw [in_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the region: the projection of the feature and weight arrays the region finds. -/
theorem array_after (c : Dev nD) : (dat0 V c).arrAt 2 cfg0.N = project (V c main_arg0) (V c main_arg2) :=
  (dat0 V c).arrAt_eq_of_cover 2 (project (V c main_arg0) (V c main_arg2)) (fun t _ => written_back V c t) covered

end Cert.KernelIdeal.Projection

end
-- ==== Proof.CombineBlock.lean ====
/-
  One block of the output: the bias / PReLU region's stored value, read at an index, at the ideal values.

  The body loads a 5000 x 64 block of the aggregated rows, the bias as one row of 64 and the slope as a 1 x 1 array. It
  adds the bias row to every row of the block, compares the sums with zero, multiplies them by the slope, and keeps the
  sum where it is at least zero and the product elsewhere: entry (p, q) is act(block(p, q) + bias(0, q), slope(0, 0)).
-/
import proofs.«119919_j15762529976321_2_alg».proof.Proof.Gen.KernelIdeal.Skeleton
import proofs.«119919_j15762529976321_2_alg».proof.Proof.Spec
import Idealize.ShloMosaic.Lib.ValueIdx
import Idealize.ShloMosaic.Lib.ValueLayout
import Idealize.ShloMosaic.Lib.Pipeline.Value

noncomputable section

namespace Cert.KernelIdeal.Combine

open Cert.KernelIdeal Cert.KernelIdeal.Gen Idealize.ShloMosaic Idealize.ShloMosaic.ValueIdx

/-- Entry (p, q) of the stored block. -/
theorem block_entry (x0 : Vec Ideal S5000x64 .f32) (x1 : Vec Ideal S1x64 .f32) (x2 : Vec Ideal S1x1 .f32) (p : Fin 5000) (q : Fin 64) :
    k1_pay1 (F := Ideal) x0 x1 x2 (ix2 p q)
      = Cert.Layer.act (x0 (ix2 p q) + x1 (ix2 (0 : Fin 1) q)) (x2 (ix2 (0 : Fin 1) (0 : Fin 1))) := by
  unfold k1_pay1 Cert.Layer.act
  simp only [select_apply, cmpf_apply, mulf_apply, addf_apply, broadcast_apply, shapeCast_self]
  rw [broadcastTo_1b_ab_apply]
  have hs : extractAt ![0, 0] x2 inpos_S1x1_p0_0 = x2 (ix2 (0 : Fin 1) (0 : Fin 1)) := by
    unfold extractAt
    exact congrArg x2 (funext fun a => by match a with | ⟨0, _⟩ => rfl | ⟨1, _⟩ => rfl)
  rw [hs]
  rfl

end Cert.KernelIdeal.Combine

end
-- ==== Proof.CombineArray.lean ====
/-
  The output as a whole array: what the bias / PReLU region leaves in its output array.

  The region's grid has 20 points. Point t loads rows 5000·t … 5000·t + 4999 of the aggregated rows (all 64 columns),
  the bias row and the slope, and writes back the same rows of the output. The block it writes back has, at (p, q),
  act(aggregated(5000·t + p, q) + bias(0, q), slope(0, 0)): entry (5000·t + p, q) of the layer's output function. The
  20 blocks tile the 100000 rows (the block holding row r is r / 5000), so the array ends as the output function of the
  three arrays the region finds.
-/
import proofs.«119919_j15762529976321_2_alg».proof.Proof.Gen.KernelIdeal.Frame
import proofs.«119919_j15762529976321_2_alg».proof.Proof.CombineBlock
import proofs.«119919_j15762529976321_2_alg».proof.Proof.Spec
import Idealize.ShloMosaic.Lib.Pipeline.Value

set_option maxRecDepth 16384

noncomputable section

namespace Cert.KernelIdeal.Combine

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the 20 points: the aggregated block and the output block sit at block row t, column
    block 0; the bias row and the slope are one block each. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the output function of the arrays the region finds. -/
theorem written_back (c : Dev nD) (t : Fin cfg1.N) :
    (dat1 V c).flushed 3 t = ((cfg1.win 3).blk t).view.read (Elt Ideal) (output (V c main_v42) (V c main_v43) (V c main_v44)) := by
  show (cfg1.win 3).cut (grid1.coords t) ((dat1 V c).after 3 t) = _
  rw [after1_3]
  unfold out1_3
  rw [View.canon_unit_zero origin2]
  simp only [View.ld_unit_zero (S := S5000x64) origin2, View.ld_unit_zero (S := S1x64) origin2, View.ld_unit_zero (S := S1x1) origin2]
  obtain ⟨e0, e1, e2, e3, e4, e5, e6, e7⟩ := block_indices t
  funext j
  obtain ⟨p, q, rfl⟩ : ∃ (p : Fin 5000) (q : Fin 64), j = ix2 p q := ⟨j 0, j 1, eq_ix2 j⟩
  refine (block_entry _ _ _ p q).trans ?_
  show act ((@id (SOut.Idx → EReal) (V c main_v42)) (((cfg1.win 0).blk t).view.emb (ix2 p q)) + (@id (SBiasRow.Idx → EReal) (V c main_v43)) (((cfg1.win 1).blk t).view.emb (ix2 (0 : Fin 1) q)))
        ((@id (SSlope.Idx → EReal) (V c main_v44)) (((cfg1.win 2).blk t).view.emb (ix2 (0 : Fin 1) (0 : Fin 1))))
    = act ((@id (SOut.Idx → EReal) (V c main_v42)) (((cfg1.win 3).blk t).view.emb (ix2 p q)) + (@id (SBiasRow.Idx → EReal) (V c main_v43)) (biasAt (((cfg1.win 3).blk t).view.emb (ix2 p q))))
        ((@id (SSlope.Idx → EReal) (V c main_v44)) (ix2 (0 : Fin 1) (0 : Fin 1)))
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * q.val = win1_3.index t (1 : Fin 2) * 64 + 1 * q.val; omega
  have h1 : ((cfg1.win 1).blk t).view.emb (ix2 (0 : Fin 1) q) = biasAt (((cfg1.win 3).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 64 + 1 * q.val = win1_3.index t (1 : Fin 2) * 64 + 1 * q.val; omega
  have h2 : ((cfg1.win 2).blk t).view.emb (ix2 (0 : Fin 1) (0 : Fin 1)) = ix2 (0 : Fin 1) (0 : Fin 1) := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  rw [h0, h1, h2]

/-- An index of the output array lies in point t's block iff each coordinate lies in the block's range on its axis. -/
theorem in_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every index of the output array is in the block of some point, which writes back: row r is in block r / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨e0, e1, e2, e3, e4, e5, e6, e7⟩ := block_indices t
  refine ⟨t, flush1_3 t, ?_⟩
  rw [in_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region: the output function of the aggregated rows, the bias row and the slope that the
    region finds. -/
theorem array_after (c : Dev nD) : (dat1 V c).arrAt 3 cfg1.N = output (V c main_v42) (V c main_v43) (V c main_v44) :=
  (dat1 V c).arrAt_eq_of_cover 3 (output (V c main_v42) (V c main_v43) (V c main_v44)) (fun t _ => written_back V c t) covered

end Cert.KernelIdeal.Combine

end
-- ==== Proof.ChainK.lean ====
/-
  The aggregation as ONE function of the projected rows `X` and the edge list `E`, spelled with this program's
  own operations: the in-degree of every node by a scatter-add of ones at the edge targets; d^(-1/2) where the degree
  is positive and zero elsewhere; the two factors gathered at each edge's source and target (a negative index wrapped
  by the node count) and multiplied; the source's projected row gathered, scaled by that factor, and scatter-added into
  the target's row of a zero array.
-/
import proofs.«119919_j15762529976321_2_alg».proof.Proof.Gen.KernelIdeal

set_option maxRecDepth 8192

noncomputable section

namespace Cert.KernelIdeal.Chain

open Cert.KernelIdeal Cert.KernelIdeal.Gen Idealize.ShloMosaic Idealize.ShloMosaic.TcCoe

variable {F : FTy → Type} [FloatOps F]

/-- The aggregated rows from the projected rows and the edge list. -/
def agg (X : (⟨S100000x64, .f32⟩ : BufTy).Contents (Elt F)) (E : (⟨S2x3200000, .i32⟩ : BufTy).Contents (Elt F)) :
    (⟨S100000x64, .f32⟩ : BufTy).Contents (Elt F) :=
  (Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (mulf (Host.gather gather_S100000x64_S3200000x1_S3200000x64_1_0_n_n_0_1_164 X (broadcastInDim S3200000x1 ![0] bcast_S3200000_S3200000x1_0 (select (cmpi .slt (shapeCast _ (extractStridedSlice S1x3200000 ![0, 0] E slices_S2x3200000_S1x3200000_0_0) shapeCasts_S1x3200000_S3200000) (broadcastInDim S3200000 ![] bcast_S_S3200000 (constantI S_ 32 0#32))) (addi (shapeCast _ (extractStridedSlice S1x3200000 ![0, 0] E slices_S2x3200000_S1x3200000_0_0) shapeCasts_S1x3200000_S3200000) (broadcastInDim S3200000 ![] bcast_S_S3200000 (constantI S_ 32 100000#32))) (shapeCast _ (extractStridedSlice S1x3200000 ![0, 0] E slices_S2x3200000_S1x3200000_0_0) shapeCasts_S1x3200000_S3200000)))) (broadcastInDim S3200000x64 ![0, 1] bcast_S3200000x1_S3200000x64_0_1 (broadcastInDim S3200000x1 ![0] bcast_S3200000_S3200000x1_0 (mulf (Host.gather gather_S100000_S3200000x1_S3200000_n_0_n_n_0_1_1 (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x00000000#32))) (Host.rsqrt (maximumf (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3200000x1 ![0] bcast_S3200000_S3200000x1_0 (select (cmpi .slt (shapeCast _ (extractStridedSlice S1x3200000 ![0, 0] E slices_S2x3200000_S1x3200000_0_0) shapeCasts_S1x3200000_S3200000) (broadcastInDim S3200000 ![] bcast_S_S3200000 (constantI S_ 32 0#32))) (addi (shapeCast _ (extractStridedSlice S1x3200000 ![0, 0] E slices_S2x3200000_S1x3200000_0_0) shapeCasts_S1x3200000_S3200000) (broadcastInDim S3200000 ![] bcast_S_S3200000 (constantI S_ 32 100000#32))) (shapeCast _ (extractStridedSlice S1x3200000 ![0, 0] E slices_S2x3200000_S1x3200000_0_0) shapeCasts_S1x3200000_S3200000)))) (Host.gather gather_S100000_S3200000x1_S3200000_n_0_n_n_0_1_1 (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x00000000#32))) (Host.rsqrt (maximumf (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3200000x1 ![0] bcast_S3200000_S3200000x1_0 (select (cmpi .slt (shapeCast _ (extractStridedSlice S1x3200000 ![1, 0] E slices_S2x3200000_S1x3200000_1_0) shapeCasts_S1x3200000_S3200000) (broadcastInDim S3200000 ![] bcast_S_S3200000 (constantI S_ 32 0#32))) (addi (shapeCast _ (extractStridedSlice S1x3200000 ![1, 0] E slices_S2x3200000_S1x3200000_1_0) shapeCasts_S1x3200000_S3200000) (broadcastInDim S3200000 ![] bcast_S_S3200000 (constantI S_ 32 100000#32))) (shapeCast _ (extractStridedSlice S1x3200000 ![1, 0] E slices_S2x3200000_S1x3200000_1_0) shapeCasts_S1x3200000_S3200000)))))))))

end Cert.KernelIdeal.Chain

end
-- ==== Proof.Between.lean ====
/-
  Between the two regions: what the bias / PReLU region finds in its three input arrays.

  The buffer contents at that region's entry are the fold of the 58 host operations over the contents the matmul region
  leaves. Read at the three arrays: the aggregated rows are the aggregation chain applied to the projection's array and
  the edge list as they stand at the matmul region's exit; the bias row is the bias recast from 64 entries to one row
  of 64; the slope array is the slope recast from one entry to a 1 x 1 array.
-/
import proofs.«119919_j15762529976321_2_alg».proof.Proof.Gen.KernelIdeal.Frame
import proofs.«119919_j15762529976321_2_alg».proof.Proof.ChainK
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The aggregated rows at the second region's entry. -/
theorem aggregated (c : Dev nD) :
    V4 m ρ c main_v42 = Chain.agg (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v42) = _
  after_results_simp
  unfold Chain.agg
  rfl

/-- The bias row at the second region's entry. -/
theorem bias_row (c : Dev nD) :
    V4 m ρ c main_v43 = shapeCast _ (W1 m ρ c (Proc.devRef .tc main_arg3)) shapeCasts_S64_S1x64 := by
  show StableHlo.after hostOps1_2 (StableHlo.after hostOps1_1 (StableHlo.after hostOps1 (W1 m ρ c))) (Proc.devRef .tc main_v43) = _
  after_results_simp
  rfl

/-- The slope array at the second region's entry. -/
theorem slope_cell (c : Dev nD) :
    V4 m ρ c main_v44 = shapeCast _ (W1 m ρ c (Proc.devRef .tc main_arg4)) shapeCasts_S1_S1x1 := by
  show StableHlo.after hostOps1_2 (StableHlo.after hostOps1_1 (StableHlo.after hostOps1 (W1 m ρ c))) (Proc.devRef .tc main_v44) = _
  after_results_simp
  rfl

end Cert.KernelIdeal.Between

end
-- ==== Proof.KernelValue.lean ====
/-
  The kernel program's result as one function of its arguments.

  Reading the run's last boundary at the result buffer: it is the output array of the bias / PReLU region, which ends
  as the output function of what that region finds in its three inputs; those are the aggregation of the matmul
  region's output array and the edge list, and the bias and slope recast; the matmul region's output array ends as the
  projection of the features and weights; and no operation in between writes an argument. Altogether

      result = output( agg( X · W, edges ), bias as one row, slope as a 1 x 1 array ).
-/
import proofs.«119919_j15762529976321_2_alg».proof.Proof.Gen.KernelIdeal.Frame
import proofs.«119919_j15762529976321_2_alg».proof.Proof.ProjectionArray
import proofs.«119919_j15762529976321_2_alg».proof.Proof.CombineArray
import proofs.«119919_j15762529976321_2_alg».proof.Proof.Between
import proofs.«119919_j15762529976321_2_alg».proof.Proof.Spec

set_option maxRecDepth 16384

noncomputable section

namespace Cert.KernelIdeal.Result

open Cert.KernelIdeal Cert.KernelIdeal.Gen Cert.Layer
open Idealize.ShloMosaic Idealize.ShloMosaic.TcCoe Idealize.SL.Sem

variable (m : (ℓ : Loc nD τ sig) → Buf (Elt Ideal) ℓ) (ρ : Dev nD → PrngReg)

/-- The layer's output on core `c`, from the argument arrays as launched. -/
def layer (c : Dev nD) : SOut.Idx → EReal :=
  output
    (Chain.agg (F := Ideal) (project (m ((c.tc : Thread nD τ).loc main_arg0)) (m ((c.tc : Thread nD τ).loc main_arg2)))
      (m ((c.tc : Thread nD τ).loc main_arg1)))
    (shapeCast _ (m ((c.tc : Thread nD τ).loc main_arg3)) shapeCasts_S64_S1x64)
    (shapeCast _ (m ((c.tc : Thread nD τ).loc main_arg4)) shapeCasts_S1_S1x1)

/-- The projection's array as the matmul region leaves it. -/
theorem projection_left (c : Dev nD) :
    W1 m ρ c (Proc.devRef .tc main_v0)
      = project (m ((c.tc : Thread nD τ).loc main_arg0)) (m ((c.tc : Thread nD τ).loc main_arg2)) :=
  (W1_arr m ρ c 2).trans (Projection.array_after (V0 m ρ) c)

/-- The matmul region leaves the edge list, the bias and the slope as launched. -/
theorem edges_kept (c : Dev nD) : W1 m ρ c (Proc.devRef .tc main_arg1) = m ((c.tc : Thread nD τ).loc main_arg1) :=
  W1_of_ne m ρ c main_arg1 (by decide)
theorem bias_kept (c : Dev nD) : W1 m ρ c (Proc.devRef .tc main_arg3) = m ((c.tc : Thread nD τ).loc main_arg3) :=
  W1_of_ne m ρ c main_arg3 (by decide)
theorem slope_kept (c : Dev nD) : W1 m ρ c (Proc.devRef .tc main_arg4) = m ((c.tc : Thread nD τ).loc main_arg4) :=
  W1_of_ne m ρ c main_arg4 (by decide)

/-- The result buffer at the run's last boundary is the layer's output. -/
theorem result_is_layer (c : Dev nD) : W5 m ρ c (Proc.devRef .tc main_v45) = layer m c := by
  refine (W5_arr m ρ c 3).trans ?_
  rw [Combine.array_after (V4 m ρ) c, Between.aggregated m ρ c, Between.bias_row m ρ c, Between.slope_cell m ρ c,
    projection_left m ρ c, edges_kept m ρ c, bias_kept m ρ c, slope_kept m ρ c]
  rfl

end Cert.KernelIdeal.Result

end
-- ==== Proof.ChainR.lean ====
/-
  The aggregation as ONE function of the projected rows `X` and the edge list `E`, spelled with this program's
  own operations: the in-degree of every node by a scatter-add of ones at the edge targets; d^(-1/2) where the degree
  is positive and zero elsewhere; the two factors gathered at each edge's source and target (a negative index wrapped
  by the node count) and multiplied; the source's projected row gathered, scaled by that factor, and scatter-added into
  the target's row of a zero array.
-/
import proofs.«119919_j15762529976321_2_alg».proof.Proof.Gen.ReferenceIdeal

set_option maxRecDepth 8192

noncomputable section

namespace Cert.ReferenceIdeal.Chain

open Cert.ReferenceIdeal Cert.ReferenceIdeal.Gen Idealize.ShloMosaic Idealize.ShloMosaic.TcCoe

variable {F : FTy → Type} [FloatOps F]

/-- The aggregated rows from the projected rows and the edge list. -/
def agg (X : (⟨S100000x64, .f32⟩ : BufTy).Contents (Elt F)) (E : (⟨S2x3200000, .i32⟩ : BufTy).Contents (Elt F)) :
    (⟨S100000x64, .f32⟩ : BufTy).Contents (Elt F) :=
  (Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (mulf (Host.gather gather_S100000x64_S3200000x1_S3200000x64_1_0_n_n_0_1_164 X (broadcastInDim S3200000x1 ![0] bcast_S3200000_S3200000x1_0 (select (cmpi .slt (shapeCast _ (extractStridedSlice S1x3200000 ![0, 0] E slices_S2x3200000_S1x3200000_0_0) shapeCasts_S1x3200000_S3200000) (broadcastInDim S3200000 ![] bcast_S_S3200000 (constantI S_ 32 0#32))) (addi (shapeCast _ (extractStridedSlice S1x3200000 ![0, 0] E slices_S2x3200000_S1x3200000_0_0) shapeCasts_S1x3200000_S3200000) (broadcastInDim S3200000 ![] bcast_S_S3200000 (constantI S_ 32 100000#32))) (shapeCast _ (extractStridedSlice S1x3200000 ![0, 0] E slices_S2x3200000_S1x3200000_0_0) shapeCasts_S1x3200000_S3200000)))) (broadcastInDim S3200000x64 ![0, 1] bcast_S3200000x1_S3200000x64_0_1 (broadcastInDim S3200000x1 ![0] bcast_S3200000_S3200000x1_0 (mulf (Host.gather gather_S100000_S3200000x1_S3200000_n_0_n_n_0_1_1 (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x00000000#32))) (Host.rsqrt (maximumf (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3200000x1 ![0] bcast_S3200000_S3200000x1_0 (select (cmpi .slt (shapeCast _ (extractStridedSlice S1x3200000 ![0, 0] E slices_S2x3200000_S1x3200000_0_0) shapeCasts_S1x3200000_S3200000) (broadcastInDim S3200000 ![] bcast_S_S3200000 (constantI S_ 32 0#32))) (addi (shapeCast _ (extractStridedSlice S1x3200000 ![0, 0] E slices_S2x3200000_S1x3200000_0_0) shapeCasts_S1x3200000_S3200000) (broadcastInDim S3200000 ![] bcast_S_S3200000 (constantI S_ 32 100000#32))) (shapeCast _ (extractStridedSlice S1x3200000 ![0, 0] E slices_S2x3200000_S1x3200000_0_0) shapeCasts_S1x3200000_S3200000)))) (Host.gather gather_S100000_S3200000x1_S3200000_n_0_n_n_0_1_1 (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x00000000#32))) (Host.rsqrt (maximumf (Host.scatterAdd scatter_S100000_S3200000x1_S3200000_n_0_0_1 (broadcastInDim S100000 ![] bcast_S_S100000 (constant S_ .f32 0x00000000#32)) (broadcastInDim S3200000x1 ![0] bcast_S3200000_S3200000x1_0 (shapeCast _ (extractStridedSlice S1x3200000 ![1, 0] E slices_S2x3200000_S1x3200000_1_0) shapeCasts_S1x3200000_S3200000)) (broadcastInDim S3200000 ![] bcast_S_S3200000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3200000x1 ![0] bcast_S3200000_S3200000x1_0 (select (cmpi .slt (shapeCast _ (extractStridedSlice S1x3200000 ![1, 0] E slices_S2x3200000_S1x3200000_1_0) shapeCasts_S1x3200000_S3200000) (broadcastInDim S3200000 ![] bcast_S_S3200000 (constantI S_ 32 0#32))) (addi (shapeCast _ (extractStridedSlice S1x3200000 ![1, 0] E slices_S2x3200000_S1x3200000_1_0) shapeCasts_S1x3200000_S3200000) (broadcastInDim S3200000 ![] bcast_S_S3200000 (constantI S_ 32 100000#32))) (shapeCast _ (extractStridedSlice S1x3200000 ![1, 0] E slices_S2x3200000_S1x3200000_1_0) shapeCasts_S1x3200000_S3200000)))))))))

end Cert.ReferenceIdeal.Chain

end
-- ==== Proof.ChainEq.lean ====
/-
  The two programs aggregate by the same function: their chains of host operations are the same operations with the
  same dimension records and the same literals, so the two spellings are one function of the projected rows and the
  edge list.
-/
import proofs.«119919_j15762529976321_2_alg».proof.Proof.ChainK
import proofs.«119919_j15762529976321_2_alg».proof.Proof.ChainR

noncomputable section

namespace Cert.Layer

open Idealize.ShloMosaic

variable {F : FTy → Type} [FloatOps F]

set_option maxHeartbeats 400000 in
/-- One aggregation, two spellings. -/
theorem agg_same : @Cert.KernelIdeal.Chain.agg F _ = @Cert.ReferenceIdeal.Chain.agg F _ := rfl

end Cert.Layer

end
-- ==== Proof.RefValue.lean ====
/-
  The reference's result, read as the layer's output function.

  The reference computes the projection by one `dot_general` over the shared axis of extent 512, aggregates it by the
  chain of host operations, then adds the bias (broadcast first to one row, then down the 100000 rows), compares with
  zero, multiplies by the slope (recast to a scalar and broadcast), and selects. Entry by entry that is
  act(A(r, q) + b(q), a(0)): the output function of the aggregated rows, of the bias recast as one row and of the
  slope recast as a 1 x 1 array.
-/
import proofs.«119919_j15762529976321_2_alg».proof.Proof.RefRun
import proofs.«119919_j15762529976321_2_alg».proof.Proof.ChainR
import proofs.«119919_j15762529976321_2_alg».proof.Proof.Spec
import proofs.«119919_j15762529976321_2_alg».proof.Proof.LibContract1
import Idealize.ShloMosaic.Lib.ValueIdx
import Idealize.ShloMosaic.Lib.ValueLayout
import Idealize.ShloMosaic.Lib.IdealHost
import Idealize.ShloMosaic.Lib.Pipeline.Value

set_option maxRecDepth 8192

noncomputable section

namespace Cert.ReferenceIdeal.RefValue

open Cert.ReferenceIdeal Cert.ReferenceIdeal.Gen Cert.Layer
open Idealize.ShloMosaic Idealize.ShloMosaic.TcCoe Idealize.ShloMosaic.ValueIdx Idealize.SL.Sem

/-- The reference's last operations, from the aggregated rows `A`, the bias `b` and the slope `a`. -/
def tail {F : FTy → Type} [FloatOps F] (A : (⟨S100000x64, .f32⟩ : BufTy).Contents (Elt F)) (b : (⟨S64, .f32⟩ : BufTy).Contents (Elt F))
    (a : (⟨S1, .f32⟩ : BufTy).Contents (Elt F)) : (⟨S100000x64, .f32⟩ : BufTy).Contents (Elt F) :=
  select (cmpf .oge (addf A (broadcastInDim S100000x64 ![0, 1] bcast_S1x64_S100000x64_0_1 (broadcastInDim S1x64 ![1] bcast_S64_S1x64_1 b))) (broadcastInDim S100000x64 ![] bcast_S_S100000x64 (constant S_ .f32 0x00000000#32))) (addf A (broadcastInDim S100000x64 ![0, 1] bcast_S1x64_S100000x64_0_1 (broadcastInDim S1x64 ![1] bcast_S64_S1x64_1 b))) (mulf (broadcastInDim S100000x64 ![] bcast_S_S100000x64 (shapeCast _ a shapeCasts_S1_S_)) (addf A (broadcastInDim S100000x64 ![0, 1] bcast_S1x64_S100000x64_0_1 (broadcastInDim S1x64 ![1] bcast_S64_S1x64_1 b))))

/-- The reference's result term is the tail of the aggregation of its `dot_general`. -/
theorem result_split {F : FTy → Type} [FloatOps F] (m : (ℓ : Loc nD τ sig) → Buf (Elt F) ℓ) (c : Dev nD) :
    Cert.ReferenceIdeal.ValueP.res_main_v51 m c
      = tail (Chain.agg (Host.dotGeneral dot_S100000x512_S512x64_S100000x64_1_0_0_1_n_n none (m ((c.tc : Thread nD τ).loc main_arg0)) (m ((c.tc : Thread nD τ).loc main_arg2)))
          (m ((c.tc : Thread nD τ).loc main_arg1))) (m ((c.tc : Thread nD τ).loc main_arg3)) (m ((c.tc : Thread nD τ).loc main_arg4)) := by
  unfold Cert.ReferenceIdeal.ValueP.res_main_v51 tail Chain.agg
  rfl

/-- The kept axis of the left operand follows the result's row. -/
theorem lhs_row (i : S100000x64.Idx) (q : (dot_S100000x512_S512x64_S100000x64_1_0_0_1_n_n).contr.Idx) :
    ((dot_S100000x512_S512x64_S100000x64_1_0_0_1_n_n).lhsIdx i q 0).val = (i 0).val := by
  unfold DotDims.lhsIdx
  rw [dif_neg (show ¬(0 : Fin S100000x512.rank) ∈ (dot_S100000x512_S512x64_S100000x64_1_0_0_1_n_n).lhsBatch by decide),
    dif_pos (show (0 : Fin S100000x512.rank) ∈ (dot_S100000x512_S512x64_S100000x64_1_0_0_1_n_n).lhsNonContracting by decide)]
  rfl

/-- The kept axis of the right operand follows the result's column. -/
theorem rhs_col (i : S100000x64.Idx) (q : (dot_S100000x512_S512x64_S100000x64_1_0_0_1_n_n).contr.Idx) :
    ((dot_S100000x512_S512x64_S100000x64_1_0_0_1_n_n).rhsIdx i q 1).val = (i 1).val := by
  unfold DotDims.rhsIdx
  rw [dif_neg (show ¬(1 : Fin S512x64.rank) ∈ (dot_S100000x512_S512x64_S100000x64_1_0_0_1_n_n).rhsBatch by decide),
    dif_pos (show (1 : Fin S512x64.rank) ∈ (dot_S100000x512_S512x64_S100000x64_1_0_0_1_n_n).rhsNonContracting by decide)]
  rfl

/-- The host's `dot_general` is the projection. -/
theorem dot_is_projection (x : FVec Ideal S100000x512 .f32) (w : FVec Ideal S512x64 .f32) :
    Host.dotGeneral (F := Ideal) dot_S100000x512_S512x64_S100000x64_1_0_0_1_n_n none x w = project x w := by
  funext i
  refine Cert.LibContract1.dotGeneral_single dot_S100000x512_S512x64_S100000x64_1_0_0_1_n_n 512 rfl rfl x w i
    (fun k => featAt i k) (fun k => weightAt i k) (fun k => ?_) (fun k => ?_)
  · have hk := contrEquiv1_symm_val dot_S100000x512_S512x64_S100000x64_1_0_0_1_n_n 512 rfl rfl k
    funext a; apply Fin.ext
    match a with
    | ⟨0, _⟩ => exact lhs_row _ _
    | ⟨1, _⟩ => exact ((dot_S100000x512_S512x64_S100000x64_1_0_0_1_n_n).lhsIdx_val_of_single rfl _ _).trans hk
  · have hk := contrEquiv1_symm_val dot_S100000x512_S512x64_S100000x64_1_0_0_1_n_n 512 rfl rfl k
    funext a; apply Fin.ext
    match a with
    | ⟨0, _⟩ => exact ((dot_S100000x512_S512x64_S100000x64_1_0_0_1_n_n).rhsIdx_val_of_single rfl _ _).trans hk
    | ⟨1, _⟩ => exact rhs_col _ _

/-- The tail, entry by entry: act(A(i) + b(column of i), a(0)). -/
theorem tail_apply (A : (⟨S100000x64, .f32⟩ : BufTy).Contents (Elt Ideal)) (b : (⟨S64, .f32⟩ : BufTy).Contents (Elt Ideal))
    (a : (⟨S1, .f32⟩ : BufTy).Contents (Elt Ideal)) (i : S100000x64.Idx) :
    tail A b a i = act (A i + b (ix1 (⟨(i 1).val, (i 1).isLt⟩ : Fin 64))) (a (ix1 (0 : Fin 1))) := by
  have hb : broadcastInDim S100000x64 ![0, 1] bcast_S1x64_S100000x64_0_1 (broadcastInDim S1x64 ![1] bcast_S64_S1x64_1 b) i
      = b (ix1 (⟨(i 1).val, (i 1).isLt⟩ : Fin 64)) := by
    rw [broadcastInDim_apply ![0, 1] bcast_S1x64_S100000x64_0_1 _ i (biasAt i) (fun ax => by
      match ax with
      | ⟨0, _⟩ => rfl
      | ⟨1, _⟩ => rfl)]
    exact broadcastInDim_apply ![1] bcast_S64_S1x64_1 b (biasAt i) (ix1 (⟨(i 1).val, (i 1).isLt⟩ : Fin 64)) (fun ax => by
      match ax with
      | ⟨0, _⟩ => rfl)
  have hz : broadcastInDim S100000x64 ![] bcast_S_S100000x64 (constant (F := Ideal) S_ .f32 0x00000000#32) i = Ideal.ofBits .f32 0x00000000#32 := by
    rw [broadcastInDim_scalar_apply]; rfl
  have ha : broadcastInDim S100000x64 ![] bcast_S_S100000x64 (shapeCast _ a shapeCasts_S1_S_) i = a (ix1 (0 : Fin 1)) := by
    rw [broadcastInDim_scalar_apply]
    exact shapeCast_apply a shapeCasts_S1_S_ ix0 (ix1 (0 : Fin 1)) (by rw [Shape.rowMajor_val_one]; rfl)
  unfold tail act
  simp only [select_apply, cmpf_apply, mulf_apply, addf_apply]
  rw [hb, hz, ha]
  rfl

/-- The output function over the bias recast as one row and the slope recast as a 1 x 1 array, entry by entry. -/
theorem output_apply (A : SOut.Idx → EReal) (b : (⟨S64, .f32⟩ : BufTy).Contents (Elt Ideal)) (a : (⟨S1, .f32⟩ : BufTy).Contents (Elt Ideal))
    (h1 : (⟨1, ![64]⟩ : Shape).ShapeCasts ⟨2, ![1, 64]⟩) (h2 : (⟨1, ![1]⟩ : Shape).ShapeCasts ⟨2, ![1, 1]⟩) (i : SOut.Idx) :
    output A (shapeCast ⟨2, ![1, 64]⟩ b h1) (shapeCast ⟨2, ![1, 1]⟩ a h2) i
      = act (A i + b (ix1 (⟨(i 1).val, (i 1).isLt⟩ : Fin 64))) (a (ix1 (0 : Fin 1))) := by
  unfold output
  have e : biasAt i = ix2 (0 : Fin 1) (⟨(i 1).val, (i 1).isLt⟩ : Fin 64) := funext fun ax => by
    match ax with
    | ⟨0, _⟩ => rfl
    | ⟨1, _⟩ => rfl
  rw [e, shapeCast_a_1a_apply, shapeCast_a_1a_apply]

/-- The tail IS the output function of the aggregated rows, the bias row and the slope array. -/
theorem tail_is_output (A : (⟨S100000x64, .f32⟩ : BufTy).Contents (Elt Ideal)) (b : (⟨S64, .f32⟩ : BufTy).Contents (Elt Ideal))
    (a : (⟨S1, .f32⟩ : BufTy).Contents (Elt Ideal))
    (h1 : (⟨1, ![64]⟩ : Shape).ShapeCasts ⟨2, ![1, 64]⟩) (h2 : (⟨1, ![1]⟩ : Shape).ShapeCasts ⟨2, ![1, 1]⟩) :
    tail A b a = output A (shapeCast ⟨2, ![1, 64]⟩ b h1) (shapeCast ⟨2, ![1, 1]⟩ a h2) :=
  funext fun i => (tail_apply A b a i).trans (output_apply A b a h1 h2 i).symm

end Cert.ReferenceIdeal.RefValue

end
-- ==== Proof.lean ====
/-
  A graph convolution (no self loops) with a parametric ReLU: the kernel program against its jnp reference, at the
  ideal values.

  Both programs compute, for features X (100000 x 512), weights W (512 x 64), an edge list, a bias b and a slope a,

      out(r, q) = act( agg(X · W, edges)(r, q) + b(q), a(0) ),      act(v, s) = v if v ≥ 0, else s · v.

  The kernel program does the projection X · W in a first region, 2000 rows at a time on the matrix unit (its operands
  narrowed to bf16, which changes nothing at the ideal values, into a zero accumulator), and the bias and activation in
  a second region, 5000 rows at a time; between the two it runs the aggregation on the host. The reference does the
  projection by one `dot_general`, the same aggregation, and the bias and activation by host operations. So:
    * each block of the first region is the block of X · W (a sum over the 512 shared coordinates), and the 50 blocks
      tile the array — as the reference's `dot_general` is entry by entry the same sum;
    * the aggregation is the same chain of operations in both programs, kept as one function and never opened;
    * each block of the second region is the block of the output function, the 20 blocks tile the array, and the
      reference's last operations read entry by entry as the same function.
  No law of the extended reals is needed beyond reading both sides as the same sums and the same operations, so the
  finiteness of the inputs is not used. The idealization rewrote no operation: there is nothing to preserve.
-/
import proofs.«119919_j15762529976321_2_alg».proof.Defs
import proofs.«119919_j15762529976321_2_alg».proof.Proof.Gen.Kernel
import proofs.«119919_j15762529976321_2_alg».proof.Proof.Gen.Kernel.Frame
import proofs.«119919_j15762529976321_2_alg».proof.Proof.Gen.KernelIdeal
import proofs.«119919_j15762529976321_2_alg».proof.Proof.Gen.KernelIdeal.Frame
import proofs.«119919_j15762529976321_2_alg».proof.Proof.Gen.ReferenceIdeal
import proofs.«119919_j15762529976321_2_alg».proof.Proof.Gen.Pre_finite_inputs
import proofs.«119919_j15762529976321_2_alg».proof.Proof.KernelRun
import proofs.«119919_j15762529976321_2_alg».proof.Proof.KernelValue
import proofs.«119919_j15762529976321_2_alg».proof.Proof.ChainEq
import proofs.«119919_j15762529976321_2_alg».proof.Proof.RefRun
import proofs.«119919_j15762529976321_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The reference's result, from arguments that agree with the kernel program's, is the layer's output. -/
theorem reference_is_layer
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.ValueP.res_main_v51 m' c = Cert.KernelIdeal.Result.layer m c := by
  rw [Cert.ReferenceIdeal.RefValue.result_split, Cert.ReferenceIdeal.RefValue.dot_is_projection,
    Cert.ReferenceIdeal.RefValue.tail_is_output _ _ _ Cert.KernelIdeal.Gen.shapeCasts_S64_S1x64 Cert.KernelIdeal.Gen.shapeCasts_S1_S1x1,
    ← Cert.Layer.agg_same (F := Ideal), h0, h1, h2, h3, h4]
  rfl

/-- At the ideal values, from memories that agree on the arguments, both programs end with the layer's output in
    their result buffers and their arguments as launched. -/
theorem algebraic : Cert.algebraic_KernelIdeal_ReferenceIdeal := by
  intro m ρ m' ρ' _ hagree
  refine ⟨fun c => Cert.KernelIdeal.Result.layer m c, ?_, ?_⟩
  · exact (θ_run Cert.KernelIdeal.defs _ _).mono
      (fun r h c => ⟨(h c).1.trans (Cert.KernelIdeal.Result.result_is_layer m ρ c), (h c).2⟩)
      (Cert.KernelIdeal.RunV.run_result (F := Ideal) m ρ)
  · exact (θ_run Cert.ReferenceIdeal.defs _ _).mono
      (fun r h c => ⟨(h c).1.trans (reference_is_layer m m' c (hagree c).1 (hagree c).2.1 (hagree c).2.2.1 (hagree c).2.2.2.1 (hagree c).2.2.2.2), (h c).2⟩)
      (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
